-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S2548x1000 : Shape := ⟨2, ![2548, 1000]⟩
abbrev S_ : Shape := ⟨0, ![]⟩

class Facts : Prop where
  bcast_S_S2548x1000 : S_.BroadcastsInDim S2548x1000 (![] : Fin 0 → Fin S2548x1000.rank)
  reducesTo_S2548x1000_S_d0_1 : S2548x1000.ReducesTo [0, 1] S_
  h_S_ : 0 < S_.numel

variable [Facts]

def fn {F : FTy → Type} [FloatOps F] (main_arg0 : IVec S64x512 32) (main_arg1 : FVec F S2548x1000 .f32) : IVec S_ 1 :=
  let main_v0 : FVec F S2548x1000 .f32 := Host.absf main_arg1
  let main_cst : FVec F S_ .f32 := constant S_ .f32 0x7F800000#32
  let main_v1 : FVec F S2548x1000 .f32 := broadcastInDim S2548x1000 ![] bcast_S_S2548x1000 main_cst
  let main_v2 : IVec S2548x1000 1 := cmpf .olt main_v0 main_v1
  let main_c : IVec S_ 1 := constantI S_ 1 1#1
  let main_v3 : IVec S_ 1 := (fun x v => Host.reduce IntOp.andi x v reducesTo_S2548x1000_S_d0_1 h_S_) main_v2 main_c
  main_v3
-- ==== Kernel.lean ====
abbrev S64x512 : Shape := ⟨2, ![64, 512]⟩
abbrev S2548x1000 : Shape := ⟨2, ![2548, 1000]⟩
abbrev S32768x1 : Shape := ⟨2, ![32768, 1]⟩
abbrev S32768x1000 : Shape := ⟨2, ![32768, 1000]⟩
abbrev S1024x1 : Shape := ⟨2, ![1024, 1]⟩
abbrev S1024x1000 : Shape := ⟨2, ![1024, 1000]⟩
abbrev S1x2548 : Shape := ⟨2, ![1, 2548]⟩
abbrev S1024x2548 : Shape := ⟨2, ![1024, 2548]⟩
abbrev S64x512000 : Shape := ⟨2, ![64, 512000]⟩

abbrev nBuf : Space → Nat
  | .hbm => 6
  | .vmem => 5
  | .smem => 0
  | _ => 0

abbrev bufTy : (tb : Table) → Fin (tcTables nBuf tb) → BufTy
  | .hbm, ⟨0, _⟩ => ⟨S64x512, .i32⟩
  | .hbm, ⟨1, _⟩ => ⟨S2548x1000, .f32⟩
  | .hbm, ⟨2, _⟩ => ⟨S32768x1, .i32⟩
  | .hbm, ⟨3, _⟩ => ⟨S2548x1000, .bf16⟩
  | .hbm, ⟨4, _⟩ => ⟨S32768x1000, .f32⟩
  | .hbm, ⟨5, _⟩ => ⟨S64x512000, .f32⟩
  | .local _ .vmem, ⟨0, _⟩ => ⟨S1024x1, .i32⟩
  | .local _ .vmem, ⟨1, _⟩ => ⟨S1024x1, .i32⟩
  | .local _ .vmem, ⟨2, _⟩ => ⟨S2548x1000, .bf16⟩
  | .local _ .vmem, ⟨3, _⟩ => ⟨S1024x1000, .f32⟩
  | .local _ .vmem, ⟨4, _⟩ => ⟨S1024x1000, .f32⟩
  | _, _ => ⟨S64x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2548x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x512_S32768x1 : S64x512.ShapeCasts S32768x1
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1x2548_d1_w32 : S1x2548.Iotas .tc 32 [1]
  broadcasts_S1024x1_S1024x2548 : S1024x1.Broadcasts S1024x2548
  broadcasts_S1x2548_S1024x2548 : S1x2548.Broadcasts S1024x2548
  natLt_1_32 : 1 < 32
  inb_S2548x1000_S2548x1000_0_0 : ∀ a, (![0, 0] : Fin 2 → Nat) a + S2548x1000.size a ≤ S2548x1000.size a
  h_S2548x1000 : 0 < S2548x1000.numel
  shapeCasts_S2548x1000_S2548x1000 : S2548x1000.ShapeCasts S2548x1000
  inb_S1024x1000_S1024x1000_0_0 : ∀ a, (![0, 0] : Fin 2 → Nat) a + S1024x1000.size a ≤ S1024x1000.size a
  h_S1024x1000 : 0 < S1024x1000.numel
  shapeCasts_S32768x1000_S64x512000 : S32768x1000.ShapeCasts S64x512000
  dot_S1024x2548_S2548x1000_S1024x1000_1_0_0_1_n_n_wf : DotDims.WF S1024x2548 S2548x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S32768x1.size a
  hwx0_0 : ∀ i : grid0.Coords, EltTy.bits .i32 = 32 ∨ (Rect.block (s := S32768x1) S1024x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2548x1000.size a ≤ S2548x1000.size a
  hwx0_1 : ∀ i : grid0.Coords, EltTy.bits .bf16 = 32 ∨ (Rect.block (s := S2548x1000) S2548x1000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1000.size a ≤ S32768x1000.size a
  hwx0_2 : ∀ i : grid0.Coords, EltTy.bits .f32 = 32 ∨ (Rect.block (s := S32768x1000) S1024x1000.size (cc0_transform_2 i) (hinb0_2 i)).WholeWords (EltTy.packing .f32)

variable [Facts₀]

def dot_S1024x2548_S2548x1000_S1024x1000_1_0_0_1_n_n : DotDims S1024x2548 S2548x1000 S1024x1000 where
  lhsContracting := [1]
  rhsContracting := [0]
  lhsNonContracting := [0]
  rhsNonContracting := [1]
  lhsBatch := []
  rhsBatch := []
  wf := dot_S1024x2548_S2548x1000_S1024x1000_1_0_0_1_n_n_wf

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2548x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512 : Shape := ⟨2, ![64, 512]⟩
abbrev S2548x1000 : Shape := ⟨2, ![2548, 1000]⟩
abbrev S64x512x1 : Shape := ⟨3, ![64, 512, 1]⟩
abbrev S1x1x2548 : Shape := ⟨3, ![1, 1, 2548]⟩
abbrev S64x512x2548 : Shape := ⟨3, ![64, 512, 2548]⟩
abbrev S64x512x1000 : Shape := ⟨3, ![64, 512, 1000]⟩
abbrev S64x512000 : Shape := ⟨2, ![64, 512000]⟩

abbrev nBuf : Space → Nat
  | .hbm => 10
  | .vmem => 0
  | .smem => 0
  | _ => 0

abbrev bufTy : (tb : Table) → Fin (tcTables nBuf tb) → BufTy
  | .hbm, ⟨0, _⟩ => ⟨S64x512, .i32⟩
  | .hbm, ⟨1, _⟩ => ⟨S2548x1000, .f32⟩
  | .hbm, ⟨2, _⟩ => ⟨S64x512x1, .i32⟩
  | .hbm, ⟨3, _⟩ => ⟨S1x1x2548, .i32⟩
  | .hbm, ⟨4, _⟩ => ⟨S64x512x2548, .i32⟩
  | .hbm, ⟨5, _⟩ => ⟨S64x512x2548, .i32⟩
  | .hbm, ⟨6, _⟩ => ⟨S64x512x2548, .i1⟩
  | .hbm, ⟨7, _⟩ => ⟨S64x512x2548, .f32⟩
  | .hbm, ⟨8, _⟩ => ⟨S64x512x1000, .f32⟩
  | .hbm, ⟨9, _⟩ => ⟨S64x512000, .f32⟩
  | _, _ => ⟨S64x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩

abbrev nD : Nat := 1
abbrev τ : Topo := Topo.v7x

variable {F : FTy → Type} [FloatOps F]

class Facts₀ : Prop where
  bcast_S64x512_S64x512x1_0_1 : S64x512.BroadcastsInDim S64x512x1 (![0, 1] : Fin 2 → Fin S64x512x1.rank)
  bcast_S64x512x1_S64x512x2548_0_1_2 : S64x512x1.BroadcastsInDim S64x512x2548 (![0, 1, 2] : Fin 3 → Fin S64x512x2548.rank)
  bcast_S1x1x2548_S64x512x2548_0_1_2 : S1x1x2548.BroadcastsInDim S64x512x2548 (![0, 1, 2] : Fin 3 → Fin S64x512x2548.rank)
  shapeCasts_S64x512x1000_S64x512000 : S64x512x1000.ShapeCasts S64x512000
  dot_S64x512x2548_S2548x1000_S64x512x1000_2_0_01_1_n_n_wf : DotDims.WF S64x512x2548 S2548x1000 S64x512x1000 [2] [0] [0, 1] [1] [] []

variable [Facts₀]

def dot_S64x512x2548_S2548x1000_S64x512x1000_2_0_01_1_n_n : DotDims S64x512x2548 S2548x1000 S64x512x1000 where
  lhsContracting := [2]
  rhsContracting := [0]
  lhsNonContracting := [0, 1]
  rhsNonContracting := [1]
  lhsBatch := []
  rhsBatch := []
  wf := dot_S64x512x2548_S2548x1000_S64x512x1000_2_0_01_1_n_n_wf

class Facts : Prop extends Facts₀ where

variable [Facts]
-- ==== Proof.EmbedSpec.lean ====
/-
  The embedding lookup as ONE function of the token words and the weight table, over the extended reals.

  A token word `a` selects row `a` of the table when `0 ≤ a < 2548` and nothing otherwise: its one-hot row has a 1 at
  vocabulary position `k` exactly when the 32-bit word equals `k`, and 0 elsewhere. The looked-up value at embedding
  column `e` is then the sum over the 2548 vocabulary positions of the one-hot entry times the weight at `(k, e)`.
  Nothing is evaluated: both programs compute this same sum, term by term, so no law of the extended reals beyond
  reading the two sums at the same indices is needed, and the weights may be any extended reals.

  Three shapes of the same array are named: the tokens as a column of 32768 words with the result as 32768 rows of
  1000 columns (`rows`: what the blocked matrix product leaves), and the tokens as 64 × 512 words with the result as
  64 rows of 512000 columns (`out`: the result as returned, token `s` of batch `b` at columns `1000 s … 1000 s + 999`).
-/
import Idealize.ShloMosaic.PureOps.Ideal
import Idealize.ShloMosaic.Lib.ValueIdx

noncomputable section

namespace Cert.Embed

open Idealize.ShloMosaic Idealize.ShloMosaic.ValueIdx

/-- The one-hot entry of token word `a` at vocabulary position `k`: the one-bit answer of the word equality
    `a = k`, read as the natural number 0 or 1. -/
def hot (a : BitVec 32) (k : Fin 2548) : EReal :=
  (((IntOp.cmpi .eq a (BitVec.ofNat 32 k.val)).toNat : ℝ) : EReal)

/-- A single bit widened by zeros to 32 bits has its sign bit clear: read as a signed integer it is the bit read
    as a natural number. -/
theorem toInt_setWidth_one (b : BitVec 1) : (b.setWidth 32).toInt = (b.toNat : ℤ) := by
  revert b; decide

/-- So converting the widened bit as a SIGNED integer gives the same one-hot entry as converting the bit itself
    as an unsigned one. -/
theorem hot_signed (a : BitVec 32) (k : Fin 2548) :
    ((((IntOp.cmpi .eq a (BitVec.ofNat 32 k.val)).setWidth 32).toInt : ℝ) : EReal) = hot a k := by
  unfold hot
  rw [toInt_setWidth_one, Int.cast_natCast]

/-- Row `n` of the result, for the tokens as a column: entry `(n, e)` is the sum over the vocabulary of the one-hot
    entry of token `n` times the weight at `(k, e)`. -/
def rows (xc : (⟨2, ![32768, 1]⟩ : Shape).Idx → BitVec 32) (w : (⟨2, ![2548, 1000]⟩ : Shape).Idx → EReal) :
    (⟨2, ![32768, 1000]⟩ : Shape).Idx → EReal := fun i =>
  ∑ k : Fin 2548, hot (xc (ix2 ⟨(i 0).val, idx2_lt0 i⟩ ⟨0, Nat.one_pos⟩)) k * w (ix2 k ⟨(i 1).val, idx2_lt1 i⟩)

/-- The result as returned: entry `(b, j)` belongs to token `s = j / 1000` of batch `b` and embedding column
    `e = j % 1000`. -/
def out (x : (⟨2, ![64, 512]⟩ : Shape).Idx → BitVec 32) (w : (⟨2, ![2548, 1000]⟩ : Shape).Idx → EReal) :
    (⟨2, ![64, 512000]⟩ : Shape).Idx → EReal := fun i =>
  ∑ k : Fin 2548, hot (x (ix2 ⟨(i 0).val, idx2_lt0 i⟩ ⟨(i 1).val / 1000, by have := idx2_lt1 i; omega⟩)) k
    * w (ix2 k ⟨(i 1).val % 1000, Nat.mod_lt _ (by decide)⟩)

end Cert.Embed

end
-- ==== Proof.Payload.lean ====
/-
  The kernel body's stored value, read at an entry.

  The body loads a block of 1024 token words (a column) and the whole 2548 × 1000 weight table, builds the
  1024 × 2548 one-hot matrix — the token column spread along the rows, the vocabulary positions 0 … 2547 spread down
  the columns, compared for equality, the answering bit widened to a word and converted to a float — and multiplies it
  into the table from a zero accumulator. At the ideal values the two changes of float format are the identity and the
  matrix product is the plain sum over the contracted axis, so entry `(p, q)` of the stored block is the sum over the
  vocabulary of the one-hot entry of token `p` of the block times the weight at `(k, q)`.
-/
import proofs.«152395_j80075370266911_1_alg».proof.Proof.Gen.KernelIdeal.Skeleton
import proofs.«152395_j80075370266911_1_alg».proof.Proof.EmbedSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Embed

/-- The token column spread along the rows reads, at `(p, k)`, token `p`. -/
theorem tokens_spread (xc : IVec S1024x1 32) (h : S1024x1.Broadcasts S1024x2548) (p : Fin 1024) (k : Fin 2548) :
    broadcastTo S1024x2548 xc h (ix2 p k) = xc (ix2 p ⟨0, Nat.one_pos⟩) :=
  broadcastTo_apply xc h (ix2 p k) (ix2 p ⟨0, Nat.one_pos⟩) (fun a => match a with
    | ⟨0, _⟩ => by show p.val = if (1024 : Nat) = 1 then 0 else p.val; rw [if_neg (by decide)]
    | ⟨1, _⟩ => by show 0 = if (1 : Nat) = 1 then 0 else k.val; rw [if_pos rfl])

/-- The row of vocabulary positions spread down the columns reads, at `(p, k)`, the word `k`. -/
theorem positions_spread (hi : S1x2548.Iotas .tc 32 [1]) (h : S1x2548.Broadcasts S1024x2548) (p : Fin 1024) (k : Fin 2548) :
    broadcastTo S1024x2548 (iota .tc S1x2548 32 [1] hi) h (ix2 p k) = BitVec.ofNat 32 k.val :=
  (broadcastTo_apply (iota .tc S1x2548 32 [1] hi) h (ix2 p k) (ix2 ⟨0, Nat.one_pos⟩ k) (fun a => match a with
    | ⟨0, _⟩ => by show 0 = if (1 : Nat) = 1 then 0 else p.val; rw [if_pos rfl]
    | ⟨1, _⟩ => by show k.val = if (2548 : Nat) = 1 then 0 else k.val; rw [if_neg (by decide)])).trans
    (iota_single_apply .tc S1x2548 32 1 hi (ix2 ⟨0, Nat.one_pos⟩ k))

/-- The left operand's index at output entry `j`: its row is `j`'s row. -/
theorem lhs_row (j : S1024x1000.Idx) (c : dot_S1024x2548_S2548x1000_S1024x1000_1_0_0_1_n_n.contr.Idx) :
    (dot_S1024x2548_S2548x1000_S1024x1000_1_0_0_1_n_n.lhsIdx j c 0).val = (j 0).val := by
  unfold DotDims.lhsIdx
  rw [dif_neg (show ¬(0 : Fin S1024x2548.rank) ∈ dot_S1024x2548_S2548x1000_S1024x1000_1_0_0_1_n_n.lhsBatch by decide),
    dif_pos (show (0 : Fin S1024x2548.rank) ∈ dot_S1024x2548_S2548x1000_S1024x1000_1_0_0_1_n_n.lhsNonContracting by decide)]
  rfl

/-- The right operand's index at output entry `j`: its column is `j`'s column. -/
theorem rhs_col (j : S1024x1000.Idx) (c : dot_S1024x2548_S2548x1000_S1024x1000_1_0_0_1_n_n.contr.Idx) :
    (dot_S1024x2548_S2548x1000_S1024x1000_1_0_0_1_n_n.rhsIdx j c 1).val = (j 1).val := by
  unfold DotDims.rhsIdx
  rw [dif_neg (show ¬(1 : Fin S2548x1000.rank) ∈ dot_S1024x2548_S2548x1000_S1024x1000_1_0_0_1_n_n.rhsBatch by decide),
    dif_pos (show (1 : Fin S2548x1000.rank) ∈ dot_S1024x2548_S2548x1000_S1024x1000_1_0_0_1_n_n.rhsNonContracting by decide)]
  rfl

/-- Entry `(p, q)` of the block the body stores: the sum over the vocabulary of token `p`'s one-hot entry times the
    weight at `(k, q)`. -/
theorem stored_apply (x0 : Vec Ideal S1024x1 .i32) (x1 : Vec Ideal S2548x1000 .bf16) (p : Fin 1024) (q : Fin 1000) :
    k0_pay1 (F := Ideal) x0 x1 (ix2 p q)
      = ∑ k : Fin 2548, hot (x0 (ix2 p ⟨0, Nat.one_pos⟩)) k * x1 (ix2 k q) := by
  unfold k0_pay1
  refine (Ideal.matmul_constant_zero_apply dot_S1024x2548_S2548x1000_S1024x1000_1_0_0_1_n_n none _ _ (ix2 p q)).trans ?_
  rw [← Equiv.sum_comp (contrEquiv1 dot_S1024x2548_S2548x1000_S1024x1000_1_0_0_1_n_n 2548 rfl rfl).symm]
  refine Finset.sum_congr rfl fun k _ => ?_
  have hk := contrEquiv1_symm_val dot_S1024x2548_S2548x1000_S1024x1000_1_0_0_1_n_n 2548 rfl rfl k
  have el : dot_S1024x2548_S2548x1000_S1024x1000_1_0_0_1_n_n.lhsIdx (ix2 p q)
      ((contrEquiv1 dot_S1024x2548_S2548x1000_S1024x1000_1_0_0_1_n_n 2548 rfl rfl).symm k) = ix2 p k := funext fun a => Fin.ext (by
    match a with
    | ⟨0, _⟩ => exact lhs_row _ _
    | ⟨1, _⟩ => exact (dot_S1024x2548_S2548x1000_S1024x1000_1_0_0_1_n_n.lhsIdx_val_of_single rfl (ix2 p q) _).trans hk)
  have er : dot_S1024x2548_S2548x1000_S1024x1000_1_0_0_1_n_n.rhsIdx (ix2 p q)
      ((contrEquiv1 dot_S1024x2548_S2548x1000_S1024x1000_1_0_0_1_n_n 2548 rfl rfl).symm k) = ix2 k q := funext fun a => Fin.ext (by
    match a with
    | ⟨0, _⟩ => exact (dot_S1024x2548_S2548x1000_S1024x1000_1_0_0_1_n_n.rhsIdx_val_of_single rfl (ix2 p q) _).trans hk
    | ⟨1, _⟩ => exact rhs_col _ _)
  rw [el, er]
  refine congrArg₂ (· * ·) ?_ (congrFun (shapeCast_self x1 _) (ix2 k q))
  refine Eq.trans ?_ (hot_signed (x0 (ix2 p ⟨0, Nat.one_pos⟩)) k)
  show ((((IntOp.cmpi .eq (broadcastTo S1024x2548 (shapeCast S1024x1 x0 _) _ (ix2 p k))
      (broadcastTo S1024x2548 (iota .tc S1x2548 32 [1] _) _ (ix2 p k))).setWidth 32).toInt : ℝ) : EReal) = _
  rw [positions_spread, shapeCast_self, tokens_spread]

end Cert.KernelIdeal.Body

end
-- ==== Proof.Relayout.lean ====
/-
  The two re-layouts around the blocked product.

  The tokens reach the blocked product as a column of 32768 words — the 64 × 512 array in row-major order, token
  `s` of batch `b` at row `512 b + s` — and its 32768 × 1000 result is returned as 64 × 512000 in row-major order:
  entry `(b, j)` of the result is entry `(512 b + j / 1000, j % 1000)` of the product, whose row `512 b + j / 1000`
  is token `j / 1000` of batch `b` (`j / 1000 < 512`). So `rows` of the column, re-laid, is `out` of the array.
-/
import proofs.«152395_j80075370266911_1_alg».proof.Proof.EmbedSpec
import Idealize.ShloMosaic.Lib.Pipeline.Value

noncomputable section

namespace Cert.Embed

open Idealize.ShloMosaic Idealize.ShloMosaic.ValueIdx

/-- `rows` at an entry named by its coordinates. -/
theorem rows_apply (xc : (⟨2, ![32768, 1]⟩ : Shape).Idx → BitVec 32) (w : (⟨2, ![2548, 1000]⟩ : Shape).Idx → EReal)
    (n : Fin 32768) (e : Fin 1000) :
    rows xc w (ix2 n e) = ∑ k : Fin 2548, hot (xc (ix2 n ⟨0, Nat.one_pos⟩)) k * w (ix2 k e) := rfl

/-- The tokens as a column, the rows product, and the result laid out as 64 × 512000: `out`. -/
theorem rows_relaid (x : (⟨2, ![64, 512]⟩ : Shape).Idx → BitVec 32) (w : (⟨2, ![2548, 1000]⟩ : Shape).Idx → EReal)
    (hx : (⟨2, ![64, 512]⟩ : Shape).ShapeCasts ⟨2, ![32768, 1]⟩)
    (ho : (⟨2, ![32768, 1000]⟩ : Shape).ShapeCasts ⟨2, ![64, 512000]⟩) :
    shapeCast (⟨2, ![64, 512000]⟩ : Shape) (rows (shapeCast (⟨2, ![32768, 1]⟩ : Shape) x hx) w) ho = out x w := by
  funext i
  have h0 : (i 0).val < 64 := idx2_lt0 i
  have h1 : (i 1).val < 512000 := idx2_lt1 i
  refine (shapeCast_apply _ ho i (ix2 (⟨(i 0).val * 512 + (i 1).val / 1000, by omega⟩ : Fin 32768)
    (⟨(i 1).val % 1000, Nat.mod_lt _ (by decide)⟩ : Fin 1000)) ?_).trans ?_
  · rw [Shape.rowMajor_val_two, Shape.rowMajor_val_two]
    show ((i 0).val * 512 + (i 1).val / 1000) * 1000 + (i 1).val % 1000 = (i 0).val * 512000 + (i 1).val
    omega
  rw [rows_apply]
  unfold out
  refine Finset.sum_congr rfl fun k _ => ?_
  rw [shapeCast_apply x hx (ix2 (⟨(i 0).val * 512 + (i 1).val / 1000, by omega⟩ : Fin 32768) ⟨0, Nat.one_pos⟩)
    (ix2 ⟨(i 0).val, idx2_lt0 i⟩ ⟨(i 1).val / 1000, by omega⟩) (by
      rw [Shape.rowMajor_val_two, Shape.rowMajor_val_two]
      show (i 0).val * 512 + (i 1).val / 1000 = ((i 0).val * 512 + (i 1).val / 1000) * 1 + 0
      omega)]

end Cert.Embed

end
-- ==== Proof.Blocks.lean ====
/-
  The product array after the run, as one function of the arrays the region is entered with.

  The grid has 32 points. Point `t` is given rows `1024 t … 1024 t + 1023` of the token column, the whole weight table,
  and writes back rows `1024 t … 1024 t + 1023` of the 32768 × 1000 product array. What it writes is the block of
  `rows` there: entry `(p, q)` of the stored block is the sum over the vocabulary of token `1024 t + p`'s one-hot entry
  times the weight at `(k, q)`. Every row `n` lies in the block of point `n / 1024`, so the 32 blocks cover the
  array, which therefore ends as `rows` of the token column and the table as the region finds them.
-/
import proofs.«152395_j80075370266911_1_alg».proof.Proof.Gen.KernelIdeal.Frame
import proofs.«152395_j80075370266911_1_alg».proof.Proof.Payload
import proofs.«152395_j80075370266911_1_alg».proof.Proof.Relayout
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Embed
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The block indices over the grid: at point `t` the token window and the product window are at block row `t`,
    the table window at its one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem points : cfg0.N = 32 := N_0

/-- Entry `(p, 0)` of point `t`'s token block is row `1024 t + p` of the column. -/
theorem tokens_at (t : Fin cfg0.N) (p : Fin 1024) :
    ((cfg0.win 0).blk t).view.emb (ix2 p ⟨0, Nat.one_pos⟩)
      = ix2 (⟨t.val * 1024 + p.val, by have := t.isLt; have := points; omega⟩ : Fin 32768) ⟨0, Nat.one_pos⟩ := by
  obtain ⟨e0, e1, e2, e3, e4, e5⟩ := block_indices t
  funext a; apply Fin.ext
  match a with
  | ⟨0, _⟩ => show win0_0.index t (0 : Fin 2) * 1024 + 1 * p.val = t.val * 1024 + p.val; omega
  | ⟨1, _⟩ => show win0_0.index t (1 : Fin 2) * 1 + 1 * 0 = 0; omega

/-- The table's one block is the table. -/
theorem table_at (t : Fin cfg0.N) (k : Fin 2548) (q : Fin 1000) :
    ((cfg0.win 1).blk t).view.emb (ix2 k q) = ix2 k q := by
  obtain ⟨e0, e1, e2, e3, e4, e5⟩ := block_indices t
  funext a; apply Fin.ext
  match a with
  | ⟨0, _⟩ => show win0_1.index t (0 : Fin 2) * 2548 + 1 * k.val = k.val; omega
  | ⟨1, _⟩ => show win0_1.index t (1 : Fin 2) * 1000 + 1 * q.val = q.val; omega

/-- Entry `(p, q)` of point `t`'s product block is entry `(1024 t + p, q)` of the array. -/
theorem product_at (t : Fin cfg0.N) (p : Fin 1024) (q : Fin 1000) :
    ((cfg0.win 2).blk t).view.emb (ix2 p q)
      = ix2 (⟨t.val * 1024 + p.val, by have := t.isLt; have := points; omega⟩ : Fin 32768) q := by
  obtain ⟨e0, e1, e2, e3, e4, e5⟩ := block_indices t
  funext a; apply Fin.ext
  match a with
  | ⟨0, _⟩ => show win0_2.index t (0 : Fin 2) * 1024 + 1 * p.val = t.val * 1024 + p.val; omega
  | ⟨1, _⟩ => show win0_2.index t (1 : Fin 2) * 1000 + 1 * q.val = q.val; omega

/-- The token block read at an entry. -/
theorem read_tokens (c : Dev nD) (t : Fin cfg0.N) (p : Fin 1024) :
    iblk m c 0 t (ix2 p ⟨0, Nat.one_pos⟩)
      = V m c main_v0 (ix2 (⟨t.val * 1024 + p.val, by have := t.isLt; have := points; omega⟩ : Fin 32768) ⟨0, Nat.one_pos⟩) := by
  show V m c main_v0 (((cfg0.win 0).blk t).view.emb (ix2 p ⟨0, Nat.one_pos⟩)) = _
  exact congrArg (V m c main_v0) (tokens_at t p)

/-- The table block read at an entry. -/
theorem read_table (c : Dev nD) (t : Fin cfg0.N) (k : Fin 2548) (q : Fin 1000) :
    iblk m c 1 t (ix2 k q) = V m c main_v1 (ix2 k q) := by
  show V m c main_v1 (((cfg0.win 1).blk t).view.emb (ix2 k q)) = _
  exact congrArg (V m c main_v1) (table_at t k q)

/-- WHAT POINT `t` WRITES BACK is its block of `rows` of the token column and the table as the region finds them. -/
theorem flushed_eq (c : Dev nD) (t : Fin cfg0.N) :
    (dats m 0 c).flushed 2 t = ((cfg0.win 2).blk t).view.read (Elt Ideal) (rows (V m c main_v0) (V m c main_v1)) := by
  show (cfg0.win 2).cut (grid0.coords t) ((dats m 0 c).after 2 t) = _
  rw [after0_2]
  unfold out0_2
  rw [View.canon_unit_zero zero_offsets]
  simp only [View.ld_unit_zero (S := S1024x1) zero_offsets, View.ld_unit_zero (S := S2548x1000) zero_offsets]
  funext j
  obtain ⟨p, q, rfl⟩ : ∃ (p : Fin 1024) (q : Fin 1000), j = ix2 p q := ⟨j 0, j 1, eq_ix2 j⟩
  show k0_pay1 (iblk m c 0 t) (iblk m c 1 t) (ix2 p q)
    = rows (V m c main_v0) (V m c main_v1) (((cfg0.win 2).blk t).view.emb (ix2 p q))
  refine (Body.stored_apply (iblk m c 0 t) (iblk m c 1 t) p q).trans ?_
  refine Eq.trans ?_ (congrArg (rows (V m c main_v0) (V m c main_v1)) (product_at t p q)).symm
  refine Eq.trans ?_ (rows_apply (V m c main_v0) (V m c main_v1) _ q).symm
  refine Finset.sum_congr rfl fun k _ => ?_
  rw [read_tokens m c t p, read_table m c t k q]

/-- An entry of the array is in point `t`'s block iff each coordinate is in the block's range on its axis. -/
theorem mem_blk (t : Fin cfg0.N) (i : S32768x1000.Idx) :
    i ∈ ((cfg0.win 2).blk t).view.set ↔ ∀ a : Fin 2, win0_2.index t a * S1024x1000.size a ≤ (i a).val ∧ (i a).val < win0_2.index t a * S1024x1000.size a + S1024x1000.size a := by
  show i ∈ ((View.whole main_v2).slice (win0_2.rect t)).set ↔ _
  rw [View.set_slice_whole, Rect.mem_set_unit]
  exact Iff.rfl

/-- Every entry is in the block of the point its row divided by 1024 names, and every point writes back. -/
theorem covered (i : S32768x1000.Idx) :
    ∃ t : Fin cfg0.N, (cfg0.win 2).flush t = true ∧ i ∈ ((cfg0.win 2).blk t).view.set := by
  have hi0 : (i 0).val < 32768 := idx2_lt0 i
  have hi1 : (i 1).val < 1000 := idx2_lt1 i
  obtain ⟨t, ht⟩ : ∃ t : Fin cfg0.N, t.val = (i 0).val / 1024 := ⟨⟨(i 0).val / 1024, by rw [points]; omega⟩, rfl⟩
  obtain ⟨e0, e1, e2, e3, e4, e5⟩ := block_indices t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1000 ≤ (i 1).val ∧ (i 1).val < win0_2.index t (1 : Fin 2) * 1000 + 1000; omega

/-- THE PRODUCT ARRAY after the run. -/
theorem product_final (c : Dev nD) : (dats m 0 c).arrAt 2 cfg0.N = rows (V m c main_v0) (V m c main_v1) :=
  (dats m 0 c).arrAt_eq_of_cover 2 (rows (V m c main_v0) (V m c main_v1)) (fun t _ => flushed_eq m c t) covered

end Cert.KernelIdeal.Blocks

end
-- ==== Proof.Whole.lean ====
/-
  The whole kernel program: the host lines around the blocked product, and its run.

  Before the region the host lays the 64 × 512 token array out as a column of 32768 words and changes the weight
  table's float format, which at the ideal values changes nothing. After the region it lays the 32768 × 1000 product
  array out as 64 × 512000. With the product array equal to `rows` of what the region is entered with, the returned
  array is `out` of the two arguments.
-/
import proofs.«152395_j80075370266911_1_alg».proof.Proof.Blocks
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Embed Idealize.ShloMosaic.StableHlo

variable (m : (ℓ : Loc nD τ sig) → Buf (Elt Ideal) ℓ) (ρ : Dev nD → PrngReg)

/-- The token column the region is entered with is the token array in row-major order. -/
theorem tokens_entry (c : Dev nD) (h : S64x512.ShapeCasts S32768x1) :
    (V m c main_v0 : S32768x1.Idx → BitVec 32) = shapeCast S32768x1 (m ((c : Thread nD τ).loc main_arg0)) h := by
  show StableHlo.after hostOps0 (fun b => m (c, b)) (Proc.devRef .tc main_v0) = _
  after_results
  rfl

/-- The weight table the region is entered with is the weight argument: the change of format is the identity. -/
theorem table_entry (c : Dev nD) :
    (V m c main_v1 : S2548x1000.Idx → EReal) = m ((c : Thread nD τ).loc main_arg1) := by
  show StableHlo.after hostOps0 (fun b => m (c, b)) (Proc.devRef .tc main_v1) = _
  after_results
  rfl

/-- The returned array after the host line that follows the region. -/
theorem result_eq (c : Dev nD) :
    Pipeline.afterTail₀ cfgs (dats m) 0 (V0 m) [hostOps1] c main_v3
      = out (m ((c : Thread nD τ).loc main_arg0)) (m ((c : Thread nD τ).loc main_arg1)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = rows (V m c main_v0) (V m c main_v1) :=
    (Pipeline.withArrays_arr spec0 launch0.win.arr_inj c (V0 m c) _ 2).trans (Blocks.product_final m c)
  have key : ∀ (h1 : S64x512.ShapeCasts S32768x1) (h2 : S32768x1000.ShapeCasts S64x512000),
      shapeCast S64x512000 (Pipeline.withArrays (cfgs 0).spec c (V0 m c) (fun w => (dats m 0 c).arrAt w (cfgs 0).N)
        (Proc.devRef .tc main_v2)) h2
        = out (m ((c : Thread nD τ).loc main_arg0)) (m ((c : Thread nD τ).loc main_arg1)) := fun h1 h2 => by
    rw [hw, tokens_entry m c h1, table_entry m c]
    exact rows_relaid _ _ h1 h2
  exact key Facts₀.shapeCasts_S64x512_S32768x1 _

/-- THE KERNEL'S RUN: every weakly fair execution terminates with the returned array at `out` of the two arguments,
    and the arguments unchanged. -/
theorem run : θ_run defs (onTc (τ := τ) (main (F := Ideal))) ⟨m, fun _ => 0, ρ⟩ fun r => ∀ c : Dev nD,
      r.2.mem ((c.tc : Thread nD τ).loc main_v3) = out (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.RefValue.lean ====
/-
  The reference computes `out`.

  The reference spreads the 64 × 512 token words along a new last axis of 2548 vocabulary positions, compares them with
  the positions 0 … 2547 for equality, converts the answering bit to a float (the one-hot array), contracts its last
  axis against the rows of the weight table, and lays the 64 × 512 × 1000 result out as 64 × 512000. Read at entry
  `(b, j)`: the flat position `512000 b + j` splits as batch `b`, token `j / 1000` and column `j % 1000`
  (`j < 512000`), and the contraction is the sum over the vocabulary of the one-hot entry times the weight.
-/
import proofs.«152395_j80075370266911_1_alg».proof.Proof.Gen.ReferenceIdeal.Read
import proofs.«152395_j80075370266911_1_alg».proof.Proof.EmbedSpec

noncomputable section

namespace Cert.ReferenceIdeal.RefValue

open Cert.ReferenceIdeal Cert.ReferenceIdeal.Read Idealize.ShloMosaic Idealize.ShloMosaic.ValueIdx Cert.Embed

/-- The reference's result, as a function of the token array and the weight table, is `out`. -/
theorem ref_eq_out (x : (⟨S64x512, .i32⟩ : BufTy).Contents (Elt Ideal)) (w : (⟨S2548x1000, .f32⟩ : BufTy).Contents (Elt Ideal)) :
    val_main_v2 (F := Ideal) x w = out x w := by
  funext i
  have h0 : (i 0).val < 64 := idx2_lt0 i
  have h1 : (i 1).val < 512000 := idx2_lt1 i
  rw [val_main_v2_apply, val_main_v1_apply]
  unfold out
  refine Finset.sum_congr rfl fun k _ => ?_
  rw [val_main_v0_apply, val_main_call0_v4_apply, val_main_call0_v2_apply, val_main_call0_v0_apply,
    val_main_call0_v3_apply, val_main_call0_v1_apply]
  have ex : idx_main_call0_v0 (idx_main_call0_v2 (lidx_main_v1 (idx_main_v2 i) k))
      = ix2 ⟨(i 0).val, idx2_lt0 i⟩ ⟨(i 1).val / 1000, by omega⟩ := funext fun a => Fin.ext (by
    match a with
    | ⟨0, _⟩ => show ((i 0).val * 512000 + (i 1).val) / 512000 = (i 0).val; omega
    | ⟨1, _⟩ => show ((i 0).val * 512000 + (i 1).val) / 1000 % 512 = (i 1).val / 1000; omega)
  have ew : ridx_main_v1 (idx_main_v2 i) k = ix2 k ⟨(i 1).val % 1000, Nat.mod_lt _ (by decide)⟩ := funext fun a => Fin.ext (by
    match a with
    | ⟨0, _⟩ => rfl
    | ⟨1, _⟩ => show ((i 0).val * 512000 + (i 1).val) % 1000 = (i 1).val % 1000; omega)
  rw [ex, ew]
  rfl

end Cert.ReferenceIdeal.RefValue

end
-- ==== Proof.lean ====
/-
  An embedding lookup written as a one-hot matrix product, against the same lookup written with `one_hot` and `einsum`.

  Inputs: 64 × 512 token words (32-bit integers) and a 2548 × 1000 table of weights. Both programs return the
  64 × 512000 array whose entry `(b, j)` is, for token `s = j / 1000` of batch `b` and embedding column `e = j % 1000`,

      Σ_{k < 2548}  [ x(b, s) = k ] · w(k, e)                                  (`Cert.Embed.out`)

  where `[ a = k ]` is 1 when the token word equals the vocabulary position `k` and 0 otherwise; a token word outside
  `0 … 2547` selects nothing in either program.

  The kernel lays the tokens out as a column of 32768 words and, at each of 32 grid points, takes 1024 of them and the
  whole table, builds the 1024 × 2548 one-hot matrix by comparing the token column with the positions `0 … 2547`,
  converts the answering bits to floats and multiplies the matrix into the table from a zero accumulator; the 32 blocks
  of 1024 rows tile the 32768 × 1000 product, which the host then lays out as 64 × 512000. The reference compares the
  64 × 512 × 2548 spread of the tokens with the positions, converts the bits, contracts the last axis against the
  table and lays the 64 × 512 × 1000 result out as 64 × 512000.

  At the ideal values the two float-format changes in the kernel (one-hot matrix and table to a shorter format) are the
  identity, both contractions are the plain sum over the vocabulary, and the one-hot entry is the same number whether
  the bit is widened to a word and converted as a signed integer (kernel) or converted directly as an unsigned one
  (reference). So the two results are the same sum, term by term, at every entry: no law of the extended reals that
  needs finite weights is used, and the precondition is never opened.

  Modules: EmbedSpec (the function `out`, and its 32768-row form `rows`), Relayout (the two row-major re-layouts
  carry `rows` to `out`), Payload (the stored block at an entry), Blocks (the product array after the run is `rows`),
  Whole (the host lines and the kernel's run), RefValue (the reference computes `out`). The ideal pass rewrote nothing,
  so the statement about it is `True`.
-/
import proofs.«152395_j80075370266911_1_alg».proof.Defs
import proofs.«152395_j80075370266911_1_alg».proof.Proof.Gen.Kernel
import proofs.«152395_j80075370266911_1_alg».proof.Proof.Gen.Kernel.Skeleton
import proofs.«152395_j80075370266911_1_alg».proof.Proof.Gen.Kernel.Launch
import proofs.«152395_j80075370266911_1_alg».proof.Proof.Gen.Kernel.Points
import proofs.«152395_j80075370266911_1_alg».proof.Proof.Gen.Kernel.Frame
import proofs.«152395_j80075370266911_1_alg».proof.Proof.Gen.KernelIdeal
import proofs.«152395_j80075370266911_1_alg».proof.Proof.Gen.KernelIdeal.Skeleton
import proofs.«152395_j80075370266911_1_alg».proof.Proof.Gen.KernelIdeal.Launch
import proofs.«152395_j80075370266911_1_alg».proof.Proof.Gen.KernelIdeal.Points
import proofs.«152395_j80075370266911_1_alg».proof.Proof.Gen.KernelIdeal.Frame
import proofs.«152395_j80075370266911_1_alg».proof.Proof.Gen.ReferenceIdeal
import proofs.«152395_j80075370266911_1_alg».proof.Proof.Gen.ReferenceIdeal.Run
import proofs.«152395_j80075370266911_1_alg».proof.Proof.Gen.ReferenceIdeal.Read
import proofs.«152395_j80075370266911_1_alg».proof.Proof.Gen.Pre_finite_inputs
import proofs.«152395_j80075370266911_1_alg».proof.Proof.Whole
import proofs.«152395_j80075370266911_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the tokens and the weights, the kernel's returned array and the reference's are both
    `out` of them. -/
theorem algebraic : Cert.algebraic_KernelIdeal_ReferenceIdeal := by
  intro m ρ m' ρ' _ hagree
  refine ⟨fun c => Cert.Embed.out (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq_out, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
